-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x128x3000 : Shape := ⟨4, ![64, 1, 128, 3000]⟩
abbrev S64 : Shape := ⟨1, ![64]⟩
abbrev S_ : Shape := ⟨0, ![]⟩

class Facts : Prop where
  bcast_S_S64x1x128x3000 : S_.BroadcastsInDim S64x1x128x3000 (![] : Fin 0 → Fin S64x1x128x3000.rank)
  reducesTo_S64x1x128x3000_S_d0_1_2_3 : S64x1x128x3000.ReducesTo [0, 1, 2, 3] S_
  h_S_ : 0 < S_.numel

variable [Facts]

def fn {F : FTy → Type} [FloatOps F] (main_arg0 : FVec F S64x1x128x3000 .f32) (main_arg1 : IVec S64 32) (main_arg2 : IVec S64 32) (main_arg3 : IVec S64 32) (main_arg4 : IVec S64 32) : IVec S_ 1 :=
  let main_v0 : FVec F S64x1x128x3000 .f32 := Host.absf main_arg0
  let main_cst : FVec F S_ .f32 := constant S_ .f32 0x7F800000#32
  let main_v1 : FVec F S64x1x128x3000 .f32 := broadcastInDim S64x1x128x3000 ![] bcast_S_S64x1x128x3000 main_cst
  let main_v2 : IVec S64x1x128x3000 1 := cmpf .olt main_v0 main_v1
  let main_c : IVec S_ 1 := constantI S_ 1 1#1
  let main_v3 : IVec S_ 1 := (fun x v => Host.reduce IntOp.andi x v reducesTo_S64x1x128x3000_S_d0_1_2_3 h_S_) main_v2 main_c
  main_v3
-- ==== Kernel.lean ====
abbrev S64x1x128x3000 : Shape := ⟨4, ![64, 1, 128, 3000]⟩
abbrev S64 : Shape := ⟨1, ![64]⟩
abbrev S64x128x3000 : Shape := ⟨3, ![64, 128, 3000]⟩
abbrev S128 : Shape := ⟨1, ![128]⟩
abbrev S3000 : Shape := ⟨1, ![3000]⟩
abbrev S1x128 : Shape := ⟨2, ![1, 128]⟩
abbrev S64x1 : Shape := ⟨2, ![64, 1]⟩
abbrev S64x128 : Shape := ⟨2, ![64, 128]⟩
abbrev S1x3000 : Shape := ⟨2, ![1, 3000]⟩
abbrev S64x3000 : Shape := ⟨2, ![64, 3000]⟩
abbrev S64x128x1 : Shape := ⟨3, ![64, 128, 1]⟩
abbrev S64x1x3000 : Shape := ⟨3, ![64, 1, 3000]⟩
abbrev S2x128x3000 : Shape := ⟨3, ![2, 128, 3000]⟩
abbrev S2x128x1 : Shape := ⟨3, ![2, 128, 1]⟩
abbrev S2x1x3000 : Shape := ⟨3, ![2, 1, 3000]⟩

abbrev nBuf : Space → Nat
  | .hbm => 42
  | .vmem => 8
  | .smem => 0
  | _ => 0

abbrev bufTy : (tb : Table) → Fin (tcTables nBuf tb) → BufTy
  | .hbm, ⟨0, _⟩ => ⟨S64x1x128x3000, .f32⟩
  | .hbm, ⟨1, _⟩ => ⟨S64, .i32⟩
  | .hbm, ⟨2, _⟩ => ⟨S64, .i32⟩
  | .hbm, ⟨3, _⟩ => ⟨S64, .i32⟩
  | .hbm, ⟨4, _⟩ => ⟨S64, .i32⟩
  | .hbm, ⟨5, _⟩ => ⟨S64x128x3000, .f32⟩
  | .hbm, ⟨6, _⟩ => ⟨S128, .i32⟩
  | .hbm, ⟨7, _⟩ => ⟨S3000, .i32⟩
  | .hbm, ⟨8, _⟩ => ⟨S1x128, .i32⟩
  | .hbm, ⟨9, _⟩ => ⟨S64x1, .i32⟩
  | .hbm, ⟨10, _⟩ => ⟨S64x128, .i32⟩
  | .hbm, ⟨11, _⟩ => ⟨S64x128, .i32⟩
  | .hbm, ⟨12, _⟩ => ⟨S64x128, .i1⟩
  | .hbm, ⟨13, _⟩ => ⟨S1x128, .i32⟩
  | .hbm, ⟨14, _⟩ => ⟨S64x1, .i32⟩
  | .hbm, ⟨15, _⟩ => ⟨S64x1, .i32⟩
  | .hbm, ⟨16, _⟩ => ⟨S64x1, .i32⟩
  | .hbm, ⟨17, _⟩ => ⟨S64x128, .i32⟩
  | .hbm, ⟨18, _⟩ => ⟨S64x128, .i32⟩
  | .hbm, ⟨19, _⟩ => ⟨S64x128, .i1⟩
  | .hbm, ⟨20, _⟩ => ⟨S64x128, .i1⟩
  | .hbm, ⟨21, _⟩ => ⟨S64x128, .i1⟩
  | .hbm, ⟨22, _⟩ => ⟨S64x128, .f32⟩
  | .hbm, ⟨23, _⟩ => ⟨S1x3000, .i32⟩
  | .hbm, ⟨24, _⟩ => ⟨S64x1, .i32⟩
  | .hbm, ⟨25, _⟩ => ⟨S64x3000, .i32⟩
  | .hbm, ⟨26, _⟩ => ⟨S64x3000, .i32⟩
  | .hbm, ⟨27, _⟩ => ⟨S64x3000, .i1⟩
  | .hbm, ⟨28, _⟩ => ⟨S1x3000, .i32⟩
  | .hbm, ⟨29, _⟩ => ⟨S64x1, .i32⟩
  | .hbm, ⟨30, _⟩ => ⟨S64x1, .i32⟩
  | .hbm, ⟨31, _⟩ => ⟨S64x1, .i32⟩
  | .hbm, ⟨32, _⟩ => ⟨S64x3000, .i32⟩
  | .hbm, ⟨33, _⟩ => ⟨S64x3000, .i32⟩
  | .hbm, ⟨34, _⟩ => ⟨S64x3000, .i1⟩
  | .hbm, ⟨35, _⟩ => ⟨S64x3000, .i1⟩
  | .hbm, ⟨36, _⟩ => ⟨S64x3000, .i1⟩
  | .hbm, ⟨37, _⟩ => ⟨S64x3000, .f32⟩
  | .hbm, ⟨38, _⟩ => ⟨S64x128x1, .f32⟩
  | .hbm, ⟨39, _⟩ => ⟨S64x1x3000, .f32⟩
  | .hbm, ⟨40, _⟩ => ⟨S64x128x3000, .f32⟩
  | .hbm, ⟨41, _⟩ => ⟨S64x1x128x3000, .f32⟩
  | .local _ .vmem, ⟨0, _⟩ => ⟨S2x128x3000, .f32⟩
  | .local _ .vmem, ⟨1, _⟩ => ⟨S2x128x3000, .f32⟩
  | .local _ .vmem, ⟨2, _⟩ => ⟨S2x128x1, .f32⟩
  | .local _ .vmem, ⟨3, _⟩ => ⟨S2x128x1, .f32⟩
  | .local _ .vmem, ⟨4, _⟩ => ⟨S2x1x3000, .f32⟩
  | .local _ .vmem, ⟨5, _⟩ => ⟨S2x1x3000, .f32⟩
  | .local _ .vmem, ⟨6, _⟩ => ⟨S2x128x3000, .f32⟩
  | .local _ .vmem, ⟨7, _⟩ => ⟨S2x128x3000, .f32⟩
  | _, _ => ⟨S64x1x128x3000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x128x3000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x3000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x3000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x1x128x3000_S64x128x3000 : S64x1x128x3000.ShapeCasts S64x128x3000
  bcast_S128_S1x128_1 : S128.BroadcastsInDim S1x128 (![1] : Fin 1 → Fin S1x128.rank)
  bcast_S64_S64x1_0 : S64.BroadcastsInDim S64x1 (![0] : Fin 1 → Fin S64x1.rank)
  bcast_S1x128_S64x128_0_1 : S1x128.BroadcastsInDim S64x128 (![0, 1] : Fin 2 → Fin S64x128.rank)
  bcast_S64x1_S64x128_0_1 : S64x1.BroadcastsInDim S64x128 (![0, 1] : Fin 2 → Fin S64x128.rank)
  bcast_S3000_S1x3000_1 : S3000.BroadcastsInDim S1x3000 (![1] : Fin 1 → Fin S1x3000.rank)
  bcast_S1x3000_S64x3000_0_1 : S1x3000.BroadcastsInDim S64x3000 (![0, 1] : Fin 2 → Fin S64x3000.rank)
  bcast_S64x1_S64x3000_0_1 : S64x1.BroadcastsInDim S64x3000 (![0, 1] : Fin 2 → Fin S64x3000.rank)
  bcast_S64x128_S64x128x1_0_1 : S64x128.BroadcastsInDim S64x128x1 (![0, 1] : Fin 2 → Fin S64x128x1.rank)
  bcast_S64x3000_S64x1x3000_0_2 : S64x3000.BroadcastsInDim S64x1x3000 (![0, 2] : Fin 2 → Fin S64x1x3000.rank)
  inb_S2x128x3000_S2x128x3000_0_0_0 : ∀ a, (![0, 0, 0] : Fin 3 → Nat) a + S2x128x3000.size a ≤ S2x128x3000.size a
  h_S2x128x3000 : 0 < S2x128x3000.numel
  shapeCasts_S2x128x3000_S2x128x3000 : S2x128x3000.ShapeCasts S2x128x3000
  inb_S2x128x1_S2x128x1_0_0_0 : ∀ a, (![0, 0, 0] : Fin 3 → Nat) a + S2x128x1.size a ≤ S2x128x1.size a
  h_S2x128x1 : 0 < S2x128x1.numel
  shapeCasts_S2x128x1_S2x128x1 : S2x128x1.ShapeCasts S2x128x1
  broadcasts_S2x128x1_S2x128x3000 : S2x128x1.Broadcasts S2x128x3000
  inb_S2x1x3000_S2x1x3000_0_0_0 : ∀ a, (![0, 0, 0] : Fin 3 → Nat) a + S2x1x3000.size a ≤ S2x1x3000.size a
  h_S2x1x3000 : 0 < S2x1x3000.numel
  shapeCasts_S2x1x3000_S2x1x3000 : S2x1x3000.ShapeCasts S2x1x3000
  broadcasts_S2x1x3000_S2x128x3000 : S2x1x3000.Broadcasts S2x128x3000
  shapeCasts_S64x128x3000_S64x1x128x3000 : S64x128x3000.ShapeCasts S64x1x128x3000
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x128x3000.size a ≤ S64x128x3000.size a
  hwx0_0 : ∀ i : grid0.Coords, EltTy.bits .f32 = 32 ∨ (Rect.block (s := S64x128x3000) S2x128x3000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x128x1.size a ≤ S64x128x1.size a
  hwx0_1 : ∀ i : grid0.Coords, EltTy.bits .f32 = 32 ∨ (Rect.block (s := S64x128x1) S2x128x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x3000.size a ≤ S64x1x3000.size a
  hwx0_2 : ∀ i : grid0.Coords, EltTy.bits .f32 = 32 ∨ (Rect.block (s := S64x1x3000) S2x1x3000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x128x3000.size a ≤ S64x128x3000.size a
  hwx0_3 : ∀ i : grid0.Coords, EltTy.bits .f32 = 32 ∨ (Rect.block (s := S64x128x3000) S2x128x3000.size (cc0_transform_3 i) (hinb0_3 i)).WholeWords (EltTy.packing .f32)

variable [Facts₀]

abbrev win0_0 : Pipeline.Window sig grid0 :=
  Pipeline.Window.ofSpec (Memref.whole main_v0) S2x128x3000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S2x128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S2x1x3000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35) S2x128x3000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where
  halias0_3 : Pipeline.Aliased win0 0 3

variable [Facts]
-- ==== ReferenceIdeal.lean ====
abbrev S64x1x128x3000 : Shape := ⟨4, ![64, 1, 128, 3000]⟩
abbrev S64 : Shape := ⟨1, ![64]⟩
abbrev S128 : Shape := ⟨1, ![128]⟩
abbrev S3000 : Shape := ⟨1, ![3000]⟩
abbrev S1x128 : Shape := ⟨2, ![1, 128]⟩
abbrev S64x1 : Shape := ⟨2, ![64, 1]⟩
abbrev S64x128 : Shape := ⟨2, ![64, 128]⟩
abbrev S1x3000 : Shape := ⟨2, ![1, 3000]⟩
abbrev S64x3000 : Shape := ⟨2, ![64, 3000]⟩
abbrev S64x1x128x1 : Shape := ⟨4, ![64, 1, 128, 1]⟩
abbrev S64x1x1x3000 : Shape := ⟨4, ![64, 1, 1, 3000]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S64x1x128x3000, .f32⟩
  | .hbm, ⟨1, _⟩ => ⟨S64, .i32⟩
  | .hbm, ⟨2, _⟩ => ⟨S64, .i32⟩
  | .hbm, ⟨3, _⟩ => ⟨S64, .i32⟩
  | .hbm, ⟨4, _⟩ => ⟨S64, .i32⟩
  | .hbm, ⟨5, _⟩ => ⟨S128, .i32⟩
  | .hbm, ⟨6, _⟩ => ⟨S3000, .i32⟩
  | .hbm, ⟨7, _⟩ => ⟨S1x128, .i32⟩
  | .hbm, ⟨8, _⟩ => ⟨S64x1, .i32⟩
  | .hbm, ⟨9, _⟩ => ⟨S64x128, .i32⟩
  | .hbm, ⟨10, _⟩ => ⟨S64x128, .i32⟩
  | .hbm, ⟨11, _⟩ => ⟨S64x128, .i1⟩
  | .hbm, ⟨12, _⟩ => ⟨S1x128, .i32⟩
  | .hbm, ⟨13, _⟩ => ⟨S64x1, .i32⟩
  | .hbm, ⟨14, _⟩ => ⟨S64x1, .i32⟩
  | .hbm, ⟨15, _⟩ => ⟨S64x1, .i32⟩
  | .hbm, ⟨16, _⟩ => ⟨S64x128, .i32⟩
  | .hbm, ⟨17, _⟩ => ⟨S64x128, .i32⟩
  | .hbm, ⟨18, _⟩ => ⟨S64x128, .i1⟩
  | .hbm, ⟨19, _⟩ => ⟨S64x128, .i1⟩
  | .hbm, ⟨20, _⟩ => ⟨S64x128, .i1⟩
  | .hbm, ⟨21, _⟩ => ⟨S1x3000, .i32⟩
  | .hbm, ⟨22, _⟩ => ⟨S64x1, .i32⟩
  | .hbm, ⟨23, _⟩ => ⟨S64x3000, .i32⟩
  | .hbm, ⟨24, _⟩ => ⟨S64x3000, .i32⟩
  | .hbm, ⟨25, _⟩ => ⟨S64x3000, .i1⟩
  | .hbm, ⟨26, _⟩ => ⟨S1x3000, .i32⟩
  | .hbm, ⟨27, _⟩ => ⟨S64x1, .i32⟩
  | .hbm, ⟨28, _⟩ => ⟨S64x1, .i32⟩
  | .hbm, ⟨29, _⟩ => ⟨S64x1, .i32⟩
  | .hbm, ⟨30, _⟩ => ⟨S64x3000, .i32⟩
  | .hbm, ⟨31, _⟩ => ⟨S64x3000, .i32⟩
  | .hbm, ⟨32, _⟩ => ⟨S64x3000, .i1⟩
  | .hbm, ⟨33, _⟩ => ⟨S64x3000, .i1⟩
  | .hbm, ⟨34, _⟩ => ⟨S64x3000, .i1⟩
  | .hbm, ⟨35, _⟩ => ⟨S64x1x128x1, .i1⟩
  | .hbm, ⟨36, _⟩ => ⟨S64x1x1x3000, .i1⟩
  | .hbm, ⟨37, _⟩ => ⟨S64x1x128x3000, .i1⟩
  | .hbm, ⟨38, _⟩ => ⟨S64x1x128x3000, .i1⟩
  | .hbm, ⟨39, _⟩ => ⟨S64x1x128x3000, .i1⟩
  | .hbm, ⟨40, _⟩ => ⟨S_, .f32⟩
  | .hbm, ⟨41, _⟩ => ⟨S64x1x128x3000, .f32⟩
  | .hbm, ⟨42, _⟩ => ⟨S64x1x128x3000, .f32⟩
  | _, _ => ⟨S64x1x128x3000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst : Ref sig .tc := ⟨.hbm, 40, rfl⟩
abbrev main_call0_v0 : Ref sig .tc := ⟨.hbm, 41, rfl⟩
abbrev main_v35 : Ref sig .tc := ⟨.hbm, 42, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S64_S64x1_0 : S64.BroadcastsInDim S64x1 (![0] : Fin 1 → Fin S64x1.rank)
  bcast_S1x128_S64x128_0_1 : S1x128.BroadcastsInDim S64x128 (![0, 1] : Fin 2 → Fin S64x128.rank)
  bcast_S64x1_S64x128_0_1 : S64x1.BroadcastsInDim S64x128 (![0, 1] : Fin 2 → Fin S64x128.rank)
  bcast_S3000_S1x3000_1 : S3000.BroadcastsInDim S1x3000 (![1] : Fin 1 → Fin S1x3000.rank)
  bcast_S1x3000_S64x3000_0_1 : S1x3000.BroadcastsInDim S64x3000 (![0, 1] : Fin 2 → Fin S64x3000.rank)
  bcast_S64x1_S64x3000_0_1 : S64x1.BroadcastsInDim S64x3000 (![0, 1] : Fin 2 → Fin S64x3000.rank)
  bcast_S64x128_S64x1x128x1_0_2 : S64x128.BroadcastsInDim S64x1x128x1 (![0, 2] : Fin 2 → Fin S64x1x128x1.rank)
  bcast_S64x3000_S64x1x1x3000_0_3 : S64x3000.BroadcastsInDim S64x1x1x3000 (![0, 3] : Fin 2 → Fin S64x1x1x3000.rank)
  bcast_S64x1x128x1_S64x1x128x3000_0_1_2_3 : S64x1x128x1.BroadcastsInDim S64x1x128x3000 (![0, 1, 2, 3] : Fin 4 → Fin S64x1x128x3000.rank)
  bcast_S64x1x1x3000_S64x1x128x3000_0_1_2_3 : S64x1x1x3000.BroadcastsInDim S64x1x128x3000 (![0, 1, 2, 3] : Fin 4 → Fin S64x1x128x3000.rank)
  bcast_S_S64x1x128x3000 : S_.BroadcastsInDim S64x1x128x3000 (![] : Fin 0 → Fin S64x1x128x3000.rank)

variable [Facts₀]

class Facts : Prop extends Facts₀ where

variable [Facts]
-- ==== Proof.MaskedArray.lean ====
/-
  The masked array, and the law that joins the two programs.

  For an array `x` over [64, 1, 128, 3000] and two one-bit masks, `kf` over [64, 128] (sample, frequency) and
  `kt` over [64, 3000] (sample, time), the masked array keeps `x (b, 0, f, t)` where both `kf (b, f)` and
  `kt (b, t)` are set, and is zero elsewhere. One program selects on the conjunction of the two bits; the other
  multiplies `x` by each bit read as the number 0 or 1. On the extended reals a product with 1 is the other
  factor and a product with 0 is 0, at the infinities too, so the two agree for EVERY `x`: no entry has to
  be finite.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The shapes of the array and of the two masks. -/
abbrev SX : Shape := ⟨4, ![64, 1, 128, 3000]⟩
abbrev SF : Shape := ⟨2, ![64, 128]⟩
abbrev ST : Shape := ⟨2, ![64, 3000]⟩

/-- `x (b, 0, f, t)` where `kf (b, f)` and `kt (b, t)` are both set; zero elsewhere. -/
def masked (x : SX.Idx → EReal) (kf : SF.Idx → BitVec 1) (kt : ST.Idx → BitVec 1) : SX.Idx → EReal :=
  fun i => Scalar.select (IntOp.andi (kf (ix2 (i 0) (i 2))) (kt (ix2 (i 0) (i 3)))) (x i) (Ideal.ofBits .f32 0x00000000#32)

/-- A bit read as a number: the set bit is 1, -/
theorem bit_one : (((1#1 : BitVec 1).toNat : ℝ) : EReal) = 1 := by
  show (((1 : ℕ) : ℝ) : EReal) = 1
  rw [Nat.cast_one, EReal.coe_one]
/-- the clear bit is 0. -/
theorem bit_zero : (((0#1 : BitVec 1).toNat : ℝ) : EReal) = 0 := by
  show (((0 : ℕ) : ℝ) : EReal) = 0
  rw [Nat.cast_zero, EReal.coe_zero]

/-- THE LAW: the product of `x` with two bits read as numbers is `x` when both bits are set and zero otherwise —
    the selection on the bits' conjunction. Four cases of the two bits; `x` is any extended real. -/
theorem mul_bits (x : EReal) (a b : BitVec 1) :
    x * ((a.toNat : ℝ) : EReal) * ((b.toNat : ℝ) : EReal)
      = Scalar.select (IntOp.andi a b) x (Ideal.ofBits .f32 0x00000000#32) := by
  rw [Ideal.ofBits_zero_f32]
  by_cases ha : a = 1#1
  · by_cases hb : b = 1#1
    · subst ha hb
      rw [bit_one, mul_one, mul_one]
      exact (select_one x 0).symm
    · have hb0 := eq_zero_of_ne_one hb
      subst ha hb0
      rw [bit_one, bit_zero, mul_one, mul_zero]
      exact (select_zero x 0).symm
  · have ha0 := eq_zero_of_ne_one ha
    subst ha0
    rw [bit_zero, mul_zero, zero_mul]
    have e : IntOp.andi (0#1) b = 0#1 := by
      show (0#1 : BitVec 1) &&& b = 0#1
      exact BitVec.zero_and
    rw [e]
    exact (select_zero x 0).symm

end Cert.Spec

end
-- ==== Proof.RefMasked.lean ====
/-
  The reference computes the masked array.

  The reference's two masks are its stages `val_main_v15` (sample × frequency: the complement of
  `f0 ≤ frequency < f0 + f`) and `val_main_v29` (sample × time: the complement of `t0 ≤ time < t0 + t`), each a
  function of two integer arguments. It spreads the first along the time axis and the second along the frequency
  axis, takes the conjunction, and selects between the input and a zero. Read at an index (b, 0, f, t) the two
  spread masks are the masks at (b, f) and (b, t): the masked array of `MaskedArray.lean`.
-/
import proofs.«165891_j4801773436929_2_alg».proof.Proof.Gen.ReferenceIdeal.Read
import proofs.«165891_j4801773436929_2_alg».proof.Proof.MaskedArray

noncomputable section

namespace Cert.ReferenceIdeal.RefValue

open Cert.ReferenceIdeal Cert.ReferenceIdeal.Gen Cert.ReferenceIdeal.Read
open Idealize.ShloMosaic Idealize.ShloMosaic.ValueIdx

/-- Spreading the frequency mask over the channel axis and then the time axis reads it at (sample, frequency). -/
theorem idx_freq (i : S64x1x128x3000.Idx) : idx_main_v30 (idx_main_v32 i) = ix2 (i 0) (i 2) :=
  funext fun a => Fin.ext (by match a with | ⟨0, _⟩ => rfl | ⟨1, _⟩ => rfl)

/-- Spreading the time mask over the channel axis and then the frequency axis reads it at (sample, time). -/
theorem idx_time (i : S64x1x128x3000.Idx) : idx_main_v31 (idx_main_v33 i) = ix2 (i 0) (i 3) :=
  funext fun a => Fin.ext (by match a with | ⟨0, _⟩ => rfl | ⟨1, _⟩ => rfl)

/-- The reference's result stage is the masked array of its input under its two masks. -/
theorem result_eq (x0 : (⟨S64x1x128x3000, .f32⟩ : BufTy).Contents (Elt Ideal)) (x1 x2 x3 x4 : (⟨S64, .i32⟩ : BufTy).Contents (Elt Ideal)) :
    val_main_v35 (F := Ideal) x0 x1 x2 x3 x4
      = Cert.Spec.masked x0 (val_main_v15 (F := Ideal) x2 x4) (val_main_v29 (F := Ideal) x1 x3) := by
  funext i
  rw [val_main_v35_apply, val_main_v34_apply, val_main_v32_apply, val_main_v33_apply, val_main_v30_apply,
    val_main_v31_apply, val_main_call0_v0_apply, val_main_cst_apply, idx_freq, idx_time]
  rfl

end Cert.ReferenceIdeal.RefValue

end
-- ==== Proof.RegionArray.lean ====
/-
  What the kernel's grid leaves in its result array.

  The grid has 32 points; point `t` handles the two samples 2t and 2t + 1. Each of the four windows moves along the
  sample axis only, two samples per point, and spans its array's other axes whole. The body multiplies the block of
  the input array, entry by entry, by the block of the frequency column (one value per sample and frequency, spread
  along time) and then by the block of the time row (one value per sample and time, spread along frequency). So what
  point `t` writes back is block `t` of ONE function of the three staged arrays,
      (b, f, t) ↦ x (b, f, t) · kf (b, f, 0) · kt (b, 0, t),
  and the 32 blocks tile the result array: the sample b lies in the block of point b / 2.
-/
import proofs.«165891_j4801773436929_2_alg».proof.Proof.Gen.KernelIdeal.Frame
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The body's value at an index -/

/-- Inside a block: the frequency column's entry that (sample, frequency, time) reads, -/
abbrev colOf (y : S2x128x3000.Idx) : S2x128x1.Idx := fun a => match a with
  | ⟨0, _⟩ => ⟨(y 0).val, (y 0).isLt⟩
  | ⟨1, _⟩ => ⟨(y 1).val, (y 1).isLt⟩
  | ⟨2, _⟩ => ⟨0, Nat.one_pos⟩
/-- and the time row's. -/
abbrev rowOf (y : S2x128x3000.Idx) : S2x1x3000.Idx := fun a => match a with
  | ⟨0, _⟩ => ⟨(y 0).val, (y 0).isLt⟩
  | ⟨1, _⟩ => ⟨0, Nat.one_pos⟩
  | ⟨2, _⟩ => ⟨(y 2).val, (y 2).isLt⟩

/-- The same two maps on the whole arrays. -/
abbrev colOfArr (j : S64x128x3000.Idx) : S64x128x1.Idx := fun a => match a with
  | ⟨0, _⟩ => ⟨(j 0).val, (j 0).isLt⟩
  | ⟨1, _⟩ => ⟨(j 1).val, (j 1).isLt⟩
  | ⟨2, _⟩ => ⟨0, Nat.one_pos⟩
abbrev rowOfArr (j : S64x128x3000.Idx) : S64x1x3000.Idx := fun a => match a with
  | ⟨0, _⟩ => ⟨(j 0).val, (j 0).isLt⟩
  | ⟨1, _⟩ => ⟨0, Nat.one_pos⟩
  | ⟨2, _⟩ => ⟨(j 2).val, (j 2).isLt⟩

/-- The body's stored value, entry by entry: the input block times the column's entry times the row's entry (the
    three same-shape casts are identities; each spread reads its operand at the coordinates it keeps, 0 on its unit axis). -/
theorem body_apply (x0 : Vec Ideal S2x128x3000 .f32) (x1 : Vec Ideal S2x128x1 .f32) (x2 : Vec Ideal S2x1x3000 .f32) (y : S2x128x3000.Idx) :
    k0_pay1 (F := Ideal) x0 x1 x2 y = x0 y * x1 (colOf y) * x2 (rowOf y) := by
  unfold k0_pay1
  rw [shapeCast_self, shapeCast_self, shapeCast_self, mulf_apply, mulf_apply,
    broadcastTo_apply x1 broadcasts_S2x128x1_S2x128x3000 y (colOf y) (fun a => match a with
      | ⟨0, _⟩ => by show (y 0).val = if (2 : Nat) = 1 then 0 else (y 0).val; rw [if_neg (by decide)]
      | ⟨1, _⟩ => by show (y 1).val = if (128 : Nat) = 1 then 0 else (y 1).val; rw [if_neg (by decide)]
      | ⟨2, _⟩ => by show 0 = if (1 : Nat) = 1 then 0 else (y 2).val; rw [if_pos rfl]),
    broadcastTo_apply x2 broadcasts_S2x1x3000_S2x128x3000 y (rowOf y) (fun a => match a with
      | ⟨0, _⟩ => by show (y 0).val = if (2 : Nat) = 1 then 0 else (y 0).val; rw [if_neg (by decide)]
      | ⟨1, _⟩ => by show 0 = if (1 : Nat) = 1 then 0 else (y 1).val; rw [if_pos rfl]
      | ⟨2, _⟩ => by show (y 2).val = if (3000 : Nat) = 1 then 0 else (y 2).val; rw [if_neg (by decide)])]

/-- The same as an equation of blocks. -/
theorem body_eq (x0 : Vec Ideal S2x128x3000 .f32) (x1 : Vec Ideal S2x128x1 .f32) (x2 : Vec Ideal S2x1x3000 .f32) :
    k0_pay1 (F := Ideal) x0 x1 x2 = fun y => x0 y * x1 (colOf y) * x2 (rowOf y) :=
  funext fun y => body_apply x0 x1 x2 y

/-! ## The result array as one function -/

/-- The result array as a function of the three staged arrays. -/
def regionOut (a0 : S64x128x3000.Idx → EReal) (a1 : S64x128x1.Idx → EReal) (a2 : S64x1x3000.Idx → EReal) : S64x128x3000.Idx → EReal :=
  fun j => a0 j * a1 (colOfArr j) * a2 (rowOfArr j)

/-- The three arrays the region stages, as it finds them: the input, the frequency column and the time row. -/
abbrev inArr (c : Dev nD) : S64x128x3000.Idx → EReal := V m c main_v0
abbrev colArr (c : Dev nD) : S64x128x1.Idx → EReal := V m c main_v33
abbrev rowArr (c : Dev nD) : S64x1x3000.Idx → EReal := V m c main_v34

theorem zeros : (![0, 0, 0] : Fin 3 → Nat) = fun _ => 0 := funext fun a => by fin_cases a <;> rfl

/-- The four index maps, decided over the 32 points: every window sits at the point's own sample block and at block 0
    of its other two axes. -/
theorem index_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (1 : Fin 3) = 0 ∧ win0_3.index t (2 : Fin 3) = 0 ∧ win0_3.index t (0 : Fin 3) ≤ 31 :=
  (by decide +kernel : ∀ t : Fin grid0.N, _)

/-- Every pair of samples is some point's. -/
theorem index_onto : ∀ q : Fin 32, ∃ t : Fin cfg0.N, win0_3.index t = ![q.val, 0, 0] :=
  (by decide +kernel : ∀ q : Fin 32, ∃ t : Fin grid0.N, win0_3.index t = ![q.val, 0, 0])

/-- WHAT POINT `t` WRITES BACK is block `t` of `regionOut` of the three arrays as the region finds them. -/
theorem flushed_eq (c : Dev nD) (t : Fin cfg0.N) :
    (dats m 0 c).flushed 3 t
      = ((cfg0.win 3).blk t).view.read (Elt Ideal) (regionOut (inArr m c) (colArr m c) (rowArr m c)) := by
  show (cfg0.win 3).cut (grid0.coords t) ((dats m 0 c).after 3 t) = _
  rw [after0_3]
  unfold out0_3
  rw [View.canon_unit_zero zeros]
  simp only [View.ld_unit_zero (S := S2x128x3000) zeros, View.ld_unit_zero (S := S2x128x1) zeros, View.ld_unit_zero (S := S2x1x3000) zeros]
  rw [body_eq]
  obtain ⟨e00, e01, e02, e10, e11, e12, e20, e21, e22, e31, e32, e3b⟩ := index_facts t
  funext j
  show inArr m c (((cfg0.win 0).blk t).view.emb j) * colArr m c (((cfg0.win 1).blk t).view.emb (colOf j))
        * rowArr m c (((cfg0.win 2).blk t).view.emb (rowOf j))
      = inArr m c (((cfg0.win 3).blk t).view.emb j) * colArr m c (colOfArr (((cfg0.win 3).blk t).view.emb j))
        * rowArr m c (rowOfArr (((cfg0.win 3).blk t).view.emb j))
  have h0 : ((cfg0.win 0).blk t).view.emb j = ((cfg0.win 3).blk t).view.emb j := by
    funext a; apply Fin.ext
    match a with
    | ⟨0, _⟩ => show win0_0.index t (0 : Fin 3) * 2 + 1 * (j 0).val = win0_3.index t (0 : Fin 3) * 2 + 1 * (j 0).val; omega
    | ⟨1, _⟩ => show win0_0.index t (1 : Fin 3) * 128 + 1 * (j 1).val = win0_3.index t (1 : Fin 3) * 128 + 1 * (j 1).val; omega
    | ⟨2, _⟩ => show win0_0.index t (2 : Fin 3) * 3000 + 1 * (j 2).val = win0_3.index t (2 : Fin 3) * 3000 + 1 * (j 2).val; omega
  have h1 : ((cfg0.win 1).blk t).view.emb (colOf j) = colOfArr (((cfg0.win 3).blk t).view.emb j) := by
    funext a; apply Fin.ext
    match a with
    | ⟨0, _⟩ => show win0_1.index t (0 : Fin 3) * 2 + 1 * (j 0).val = win0_3.index t (0 : Fin 3) * 2 + 1 * (j 0).val; omega
    | ⟨1, _⟩ => show win0_1.index t (1 : Fin 3) * 128 + 1 * (j 1).val = win0_3.index t (1 : Fin 3) * 128 + 1 * (j 1).val; omega
    | ⟨2, _⟩ => show win0_1.index t (2 : Fin 3) * 1 + 1 * 0 = 0; omega
  have h2 : ((cfg0.win 2).blk t).view.emb (rowOf j) = rowOfArr (((cfg0.win 3).blk t).view.emb j) := by
    funext a; apply Fin.ext
    match a with
    | ⟨0, _⟩ => show win0_2.index t (0 : Fin 3) * 2 + 1 * (j 0).val = win0_3.index t (0 : Fin 3) * 2 + 1 * (j 0).val; omega
    | ⟨1, _⟩ => show win0_2.index t (1 : Fin 3) * 1 + 1 * 0 = 0; omega
    | ⟨2, _⟩ => show win0_2.index t (2 : Fin 3) * 3000 + 1 * (j 2).val = win0_3.index t (2 : Fin 3) * 3000 + 1 * (j 2).val; omega
  rw [h0, h1, h2]

/-- An index of the result array is in point `t`'s block iff each coordinate is in the block's range on its axis. -/
theorem mem_blk (t : Fin cfg0.N) (i : S64x128x3000.Idx) :
    i ∈ ((cfg0.win 3).blk t).view.set ↔ ∀ a : Fin 3, win0_3.index t a * S2x128x3000.size a ≤ (i a).val ∧ (i a).val < win0_3.index t a * S2x128x3000.size a + S2x128x3000.size a := by
  show i ∈ ((View.whole main_v35).slice (win0_3.rect t)).set ↔ _
  rw [View.set_slice_whole, Rect.mem_set_unit]
  exact Iff.rfl

/-- The blocks tile the result array: sample `b` is in the block of the point whose sample block is `b / 2`. -/
theorem cover (i : S64x128x3000.Idx) : ∃ t : Fin cfg0.N, (cfg0.win 3).flush t = true ∧ i ∈ ((cfg0.win 3).blk t).view.set := by
  have hi0 : (i 0).val < 64 := (i 0).isLt
  have hi1 : (i 1).val < 128 := (i 1).isLt
  have hi2 : (i 2).val < 3000 := (i 2).isLt
  obtain ⟨t, ht⟩ := index_onto ⟨(i 0).val / 2, by omega⟩
  have q0 : win0_3.index t (0 : Fin 3) = (i 0).val / 2 := congrFun ht 0
  have q1 : win0_3.index t (1 : Fin 3) = 0 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 2 ≤ (i 0).val ∧ (i 0).val < win0_3.index t (0 : Fin 3) * 2 + 2; omega
  | ⟨1, _⟩ => show win0_3.index t (1 : Fin 3) * 128 ≤ (i 1).val ∧ (i 1).val < win0_3.index t (1 : Fin 3) * 128 + 128; omega
  | ⟨2, _⟩ => show win0_3.index t (2 : Fin 3) * 3000 ≤ (i 2).val ∧ (i 2).val < win0_3.index t (2 : Fin 3) * 3000 + 3000; omega

/-- THE RESULT ARRAY after the grid: `regionOut` of the three arrays as the region finds them. -/
theorem final (c : Dev nD) :
    (dats m 0 c).arrAt 3 cfg0.N = regionOut (inArr m c) (colArr m c) (rowArr m c) :=
  (dats m 0 c).arrAt_eq_of_cover 3 _ (fun t _ => flushed_eq m c t) cover

end Cert.KernelIdeal.RegionValue

end
-- ==== Proof.HostArrays.lean ====
/-
  The arrays the kernel's grid is given.

  Before the grid the program re-lays the input from [64, 1, 128, 3000] to [64, 128, 3000] (the same row-major
  order: the channel axis has one entry), and computes the two masks from the integer arguments by the very
  operations the reference uses — so they ARE the reference's mask stages — reads each bit as the number 0 or 1,
  and gives the frequency mask a trailing unit axis and the time mask a middle one.
-/
import proofs.«165891_j4801773436929_2_alg».proof.Proof.Gen.ReferenceIdeal.Read
import proofs.«165891_j4801773436929_2_alg».proof.Proof.RegionArray
import proofs.«165891_j4801773436929_2_alg».proof.Proof.MaskedArray
import Idealize.ShloMosaic.Lib.StableHlo.Run

noncomputable section

namespace Cert.KernelIdeal.HostValue

open Cert.KernelIdeal Cert.KernelIdeal.Gen Cert.KernelIdeal.RegionValue
open Idealize.ShloMosaic Idealize.ShloMosaic.TcCoe Idealize.SL.Sem Idealize.ShloMosaic.StableHlo

variable (m : (ℓ : Loc nD τ sig) → Buf (Elt Ideal) ℓ)

/-- The frequency mask of the integer arguments (f, f0) and the time mask of (t, t0): the reference's stages. -/
abbrev freqMask (c : Dev nD) : Cert.Spec.SF.Idx → BitVec 1 :=
  Cert.ReferenceIdeal.Read.val_main_v15 (F := Ideal) (m ((c : Thread nD τ).loc main_arg2)) (m ((c : Thread nD τ).loc main_arg4))
abbrev timeMask (c : Dev nD) : Cert.Spec.ST.Idx → BitVec 1 :=
  Cert.ReferenceIdeal.Read.val_main_v29 (F := Ideal) (m ((c : Thread nD τ).loc main_arg1)) (m ((c : Thread nD τ).loc main_arg3))

/-- The input array the grid stages is the argument, re-laid. -/
theorem inArr_eq (c : Dev nD) :
    inArr m c = shapeCast S64x128x3000 (m ((c : Thread nD τ).loc main_arg0)) shapeCasts_S64x1x128x3000_S64x128x3000 := by
  show StableHlo.after hostOps0 (fun b => m (c, b)) (Proc.devRef .tc main_v0) = _
  after_results_simp
  rfl

/-- The frequency column the grid stages: the frequency mask's bits as numbers, with a trailing unit axis. -/
theorem colArr_eq (c : Dev nD) :
    colArr m c = broadcastInDim S64x128x1 ![0, 1] bcast_S64x128_S64x128x1_0_1 (uitofp (F := Ideal) .f32 (freqMask m c)) := by
  show StableHlo.after hostOps0 (fun b => m (c, b)) (Proc.devRef .tc main_v33) = _
  after_results_simp
  rfl

/-- The time row the grid stages: the time mask's bits as numbers, with a middle unit axis. -/
theorem rowArr_eq (c : Dev nD) :
    rowArr m c = broadcastInDim S64x1x3000 ![0, 2] bcast_S64x3000_S64x1x3000_0_2 (uitofp (F := Ideal) .f32 (timeMask m c)) := by
  show StableHlo.after hostOps0 (fun b => m (c, b)) (Proc.devRef .tc main_v34) = _
  after_results_simp
  rfl

end Cert.KernelIdeal.HostValue

end
-- ==== Proof.KernelMasked.lean ====
/-
  The kernel's program computes the masked array.

  After the grid the program re-lays the result array from [64, 128, 3000] back to [64, 1, 128, 3000]. Read at
  (b, 0, f, t) that is the grid's result at (b, f, t): the input at (b, 0, f, t) — the two re-layings cancel — times
  the frequency mask's bit at (b, f) and the time mask's bit at (b, t), each read as 0 or 1. By the law of
  `MaskedArray.lean` this is the input where both bits are set and zero elsewhere.
-/
import proofs.«165891_j4801773436929_2_alg».proof.Proof.HostArrays

noncomputable section

namespace Cert.KernelIdeal.KernelValue

open Cert.KernelIdeal Cert.KernelIdeal.Gen Cert.KernelIdeal.RegionValue Cert.KernelIdeal.HostValue
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-- (b, 0, f, t) without its channel coordinate: the index of [64, 128, 3000] at the same row-major position. -/
abbrev dropChannel (i : S64x1x128x3000.Idx) : S64x128x3000.Idx := fun a => match a with
  | ⟨0, _⟩ => ⟨(i 0).val, (i 0).isLt⟩
  | ⟨1, _⟩ => ⟨(i 2).val, (i 2).isLt⟩
  | ⟨2, _⟩ => ⟨(i 3).val, (i 3).isLt⟩

/-- The two positions agree: the channel coordinate is 0. -/
theorem position_eq (i : S64x1x128x3000.Idx) :
    (S64x128x3000.rowMajor (dropChannel i)).val = (S64x1x128x3000.rowMajor i).val := by
  rw [Shape.rowMajor_val_three, Shape.rowMajor_val_four]
  have h1 : (i 1).val < 1 := (i 1).isLt
  show ((i 0).val * 128 + (i 2).val) * 3000 + (i 3).val = (((i 0).val * 1 + (i 1).val) * 128 + (i 2).val) * 3000 + (i 3).val
  omega

/-- The program's result is the grid's result array re-laid. -/
theorem tail_eq (c : Dev nD) :
    Pipeline.afterTail₀ cfgs (dats m) 0 (V0 m) [hostOps1] c main_v36
      = shapeCast S64x1x128x3000 (regionOut (inArr m c) (colArr m c) (rowArr m c)) shapeCasts_S64x128x3000_S64x1x128x3000 := by
  unfold Pipeline.afterTail₀
  show StableHlo.after hostOps1 _ (Proc.devRef .tc main_v36) = _
  after_results
  rw [(Pipeline.withArrays_arr spec0 launch0.win.arr_inj c _ _ 3).trans (final m c)]
  rfl

/-- THE KERNEL PROGRAM'S RESULT: the masked array of its input under the two masks of its integer arguments. -/
theorem result_eq (c : Dev nD) :
    Pipeline.afterTail₀ cfgs (dats m) 0 (V0 m) [hostOps1] c main_v36
      = Cert.Spec.masked (m ((c : Thread nD τ).loc main_arg0)) (freqMask m c) (timeMask m c) := by
  rw [tail_eq]
  funext i
  rw [shapeCast_apply _ _ i (dropChannel i) (position_eq i)]
  unfold regionOut
  rw [inArr_eq, colArr_eq, rowArr_eq, shapeCast_apply _ _ (dropChannel i) i (position_eq i).symm,
    broadcastInDim_apply _ bcast_S64x128_S64x128x1_0_1 _ (colOfArr (dropChannel i)) (ix2 (i 0) (i 2)) (fun a => match a with
      | ⟨0, _⟩ => by show (i 0).val = if (64 : Nat) = 1 then 0 else (i 0).val; rw [if_neg (by decide)]
      | ⟨1, _⟩ => by show (i 2).val = if (128 : Nat) = 1 then 0 else (i 2).val; rw [if_neg (by decide)]),
    broadcastInDim_apply _ bcast_S64x3000_S64x1x3000_0_2 _ (rowOfArr (dropChannel i)) (ix2 (i 0) (i 3)) (fun a => match a with
      | ⟨0, _⟩ => by show (i 0).val = if (64 : Nat) = 1 then 0 else (i 0).val; rw [if_neg (by decide)]
      | ⟨1, _⟩ => by show (i 3).val = if (3000 : Nat) = 1 then 0 else (i 3).val; rw [if_neg (by decide)])]
  exact Cert.Spec.mul_bits _ _ _

/-- THE KERNEL PROGRAM'S RUN: every weakly fair execution ends with the result at the masked array and the
    arguments as launched. -/
theorem run : θ_run defs (onTc (τ := τ) (main (F := Ideal))) ⟨m, fun _ => 0, ρ⟩ fun r => ∀ c : Dev nD,
      r.2.mem ((c.tc : Thread nD τ).loc main_v36) = Cert.Spec.masked (m ((c : Thread nD τ).loc main_arg0)) (freqMask m c) (timeMask m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v36 (Pipeline.mem_restRefs_of main_v36 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelValue

end
-- ==== Proof.lean ====
/-
  Per-sample band masking of a spectrogram: the kernel and its reference agree on the extended reals.

  For a batch x of 64 spectrograms (one channel, 128 frequencies, 3000 time steps) and per-sample integers
  (f0, f) and (t0, t), both programs zero the frequency band f0 ≤ frequency < f0 + f and the time band
  t0 ≤ time < t0 + t of each sample and keep x elsewhere. Each forms a one-bit "keep" mask per (sample, frequency)
  and per (sample, time) by the same 32-bit integer operations (a wrapped sum f0 + f and two signed comparisons).

  * The reference takes the conjunction of the two masks, spread over the whole array, and selects x or zero.
  * The kernel reads each bit as the number 0 or 1 and multiplies: its grid of 32 points, two samples a point,
    writes x · keep_f · keep_t block by block, and the blocks tile the array.

  On the extended reals x · 1 = x and x · 0 = 0 for EVERY x, the infinities included, so the two results are
  equal entry by entry (`Cert.Spec.mul_bits`): the precondition that the input be finite is never opened.

  The modules: `MaskedArray` (the masked array and the law), `RefMasked` (the reference computes it, over its
  generated stages), `RegionArray` (what the grid leaves in its result array), `HostArrays` (the arrays the grid is
  given: the kernel's masks are the reference's), `KernelMasked` (the kernel's program computes it). The kernel
  programs' frames and the reference's run are the generated ones.
-/
import proofs.«165891_j4801773436929_2_alg».proof.Defs
import proofs.«165891_j4801773436929_2_alg».proof.Proof.Gen.Kernel
import proofs.«165891_j4801773436929_2_alg».proof.Proof.Gen.Kernel.Skeleton
import proofs.«165891_j4801773436929_2_alg».proof.Proof.Gen.Kernel.Launch
import proofs.«165891_j4801773436929_2_alg».proof.Proof.Gen.Kernel.Points
import proofs.«165891_j4801773436929_2_alg».proof.Proof.Gen.Kernel.Frame
import proofs.«165891_j4801773436929_2_alg».proof.Proof.Gen.KernelIdeal
import proofs.«165891_j4801773436929_2_alg».proof.Proof.Gen.KernelIdeal.Skeleton
import proofs.«165891_j4801773436929_2_alg».proof.Proof.Gen.KernelIdeal.Launch
import proofs.«165891_j4801773436929_2_alg».proof.Proof.Gen.KernelIdeal.Points
import proofs.«165891_j4801773436929_2_alg».proof.Proof.Gen.KernelIdeal.Frame
import proofs.«165891_j4801773436929_2_alg».proof.Proof.Gen.ReferenceIdeal
import proofs.«165891_j4801773436929_2_alg».proof.Proof.Gen.Pre_finite_inputs
import proofs.«165891_j4801773436929_2_alg».proof.Proof.Gen.ReferenceIdeal.Run
import proofs.«165891_j4801773436929_2_alg».proof.Proof.Gen.ReferenceIdeal.Read
import proofs.«165891_j4801773436929_2_alg».proof.Proof.RefMasked
import proofs.«165891_j4801773436929_2_alg».proof.Proof.KernelMasked
import Idealize.ShloMosaic.Adequacy
import Idealize.ShloMosaic.Init

noncomputable section

namespace Cert.Proof

open Idealize.ShloMosaic Idealize.SL.Sem

/-- The two kernel programs run and keep their arguments: the generated frames. -/
theorem frame_kernel : Cert.frame_Kernel := fun m ρ _ => Cert.Kernel.Gen.frame m ρ
theorem frame_kernelIdeal : Cert.frame_KernelIdeal := fun m ρ _ => Cert.KernelIdeal.Gen.frame m ρ

/-- The reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end at the masked array of the input under the masks of
    the integer arguments: the kernel's program by `KernelValue.run`, the reference by its generated run read as the
    masked array (`RefValue.result_eq`), the arguments' agreement rewritten. The input's finiteness is not used. -/
theorem algebraic : Cert.algebraic_KernelIdeal_ReferenceIdeal := by
  intro m ρ m' ρ' _ hagree
  refine ⟨fun c => Cert.Spec.masked (m ((c.tc : Thread Cert.KernelIdeal.nD Cert.KernelIdeal.τ).loc Cert.KernelIdeal.main_arg0))
      (Cert.KernelIdeal.HostValue.freqMask m c) (Cert.KernelIdeal.HostValue.timeMask m c),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v35_eq _ _ _ _ _).trans (Cert.ReferenceIdeal.RefValue.result_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
